-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x128x32 : Shape := ⟨4, ![16, 128, 128, 32]⟩
abbrev S32x128 : Shape := ⟨2, ![32, 128]⟩
abbrev S128 : Shape := ⟨1, ![128]⟩
abbrev S_ : Shape := ⟨0, ![]⟩

class Facts : Prop where
  bcast_S_S16x128x128x32 : S_.BroadcastsInDim S16x128x128x32 (![] : Fin 0 → Fin S16x128x128x32.rank)
  reducesTo_S16x128x128x32_S_d0_1_2_3 : S16x128x128x32.ReducesTo [0, 1, 2, 3] S_
  h_S_ : 0 < S_.numel
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S16x128x128x32 .f32) (main_arg1 : FVec F S32x128 .f32) (main_arg2 : FVec F S128 .f32) : IVec S_ 1 :=
  let main_v0 : FVec F S16x128x128x32 .f32 := Host.absf main_arg0
  let main_cst : FVec F S_ .f32 := constant S_ .f32 0x7F800000#32
  let main_v1 : FVec F S16x128x128x32 .f32 := broadcastInDim S16x128x128x32 ![] bcast_S_S16x128x128x32 main_cst
  let main_v2 : IVec S16x128x128x32 1 := cmpf .olt main_v0 main_v1
  let main_c : IVec S_ 1 := constantI S_ 1 1#1
  let main_v3 : IVec S_ 1 := (fun x v => Host.reduce IntOp.andi x v reducesTo_S16x128x128x32_S_d0_1_2_3 h_S_) main_v2 main_c
  let main_v4 : FVec F S32x128 .f32 := Host.absf main_arg1
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S16x128x128x32 : Shape := ⟨4, ![16, 128, 128, 32]⟩
abbrev S32x128 : Shape := ⟨2, ![32, 128]⟩
abbrev S128 : Shape := ⟨1, ![128]⟩
abbrev S262144x32 : Shape := ⟨2, ![262144, 32]⟩
abbrev S_ : Shape := ⟨0, ![]⟩
abbrev S1x128 : Shape := ⟨2, ![1, 128]⟩
abbrev S262144x128 : Shape := ⟨2, ![262144, 128]⟩
abbrev S8192x32 : Shape := ⟨2, ![8192, 32]⟩
abbrev S8192x128 : Shape := ⟨2, ![8192, 128]⟩
abbrev S8192 : Shape := ⟨1, ![8192]⟩
abbrev S8192x1 : Shape := ⟨2, ![8192, 1]⟩
abbrev S16x16384x128 : Shape := ⟨3, ![16, 16384, 128]⟩

abbrev nBuf : Space → Nat
  | .hbm => 11
  | .vmem => 7
  | .smem => 0
  | _ => 0

abbrev bufTy : (tb : Table) → Fin (tcTables nBuf tb) → BufTy
  | .hbm, ⟨0, _⟩ => ⟨S16x128x128x32, .f32⟩
  | .hbm, ⟨1, _⟩ => ⟨S32x128, .f32⟩
  | .hbm, ⟨2, _⟩ => ⟨S128, .f32⟩
  | .hbm, ⟨3, _⟩ => ⟨S262144x32, .f32⟩
  | .hbm, ⟨4, _⟩ => ⟨S32x128, .f32⟩
  | .hbm, ⟨5, _⟩ => ⟨S_, .f32⟩
  | .hbm, ⟨6, _⟩ => ⟨S128, .f32⟩
  | .hbm, ⟨7, _⟩ => ⟨S1x128, .f32⟩
  | .hbm, ⟨8, _⟩ => ⟨S1x128, .f32⟩
  | .hbm, ⟨9, _⟩ => ⟨S262144x128, .f32⟩
  | .hbm, ⟨10, _⟩ => ⟨S16x16384x128, .f32⟩
  | .local _ .vmem, ⟨0, _⟩ => ⟨S8192x32, .f32⟩
  | .local _ .vmem, ⟨1, _⟩ => ⟨S8192x32, .f32⟩
  | .local _ .vmem, ⟨2, _⟩ => ⟨S32x128, .f32⟩
  | .local _ .vmem, ⟨3, _⟩ => ⟨S1x128, .f32⟩
  | .local _ .vmem, ⟨4, _⟩ => ⟨S1x128, .f32⟩
  | .local _ .vmem, ⟨5, _⟩ => ⟨S8192x128, .f32⟩
  | .local _ .vmem, ⟨6, _⟩ => ⟨S8192x128, .f32⟩
  | _, _ => ⟨S16x128x128x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x128x128x32_S262144x32 : S16x128x128x32.ShapeCasts S262144x32
  reducesTo_S32x128_S128_d0 : S32x128.ReducesTo [0] S128
  h_S_ : 0 < S_.numel
  shapeCasts_S128_S1x128 : S128.ShapeCasts S1x128
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  reduces_S8192x32_S8192 : S8192x32.Reduces [1] S8192
  shapeCasts_S8192_S8192x1 : S8192.ShapeCasts S8192x1
  bitsLt_bf16_f32 : FTy.bits .bf16 < FTy.bits .f32
  broadcasts_S8192x1_S8192x128 : S8192x1.Broadcasts S8192x128
  broadcasts_S1x128_S8192x128 : S1x128.Broadcasts S8192x128
  inb_S8192x128_S8192x128_0_0 : ∀ a, (![0, 0] : Fin 2 → Nat) a + S8192x128.size a ≤ S8192x128.size a
  h_S8192x128 : 0 < S8192x128.numel
  shapeCasts_S262144x128_S16x16384x128 : S262144x128.ShapeCasts S16x16384x128
  dot_S8192x32_S32x128_S8192x128_1_0_0_1_n_n_wf : DotDims.WF S8192x32 S32x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x32.size a ≤ S262144x32.size a
  hwx0_0 : ∀ i : grid0.Coords, EltTy.bits .f32 = 32 ∨ (Rect.block (s := S262144x32) S8192x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x128.size a ≤ S262144x128.size a
  hwx0_4 : ∀ i : grid0.Coords, EltTy.bits .f32 = 32 ∨ (Rect.block (s := S262144x128) S8192x128.size (cc0_transform_4 i) (hinb0_4 i)).WholeWords (EltTy.packing .f32)

variable [Facts₀]

def dot_S8192x32_S32x128_S8192x128_1_0_0_1_n_n : DotDims S8192x32 S32x128 S8192x128 where
  lhsContracting := [1]
  rhsContracting := [0]
  lhsNonContracting := [0]
  rhsNonContracting := [1]
  lhsBatch := []
  rhsBatch := []
  wf := dot_S8192x32_S32x128_S8192x128_1_0_0_1_n_n_wf

abbrev win0_0 : Pipeline.Window sig grid0 :=
  Pipeline.Window.ofSpec (Memref.whole main_v0) S8192x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S8192x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x128x128x32 : Shape := ⟨4, ![16, 128, 128, 32]⟩
abbrev S32x128 : Shape := ⟨2, ![32, 128]⟩
abbrev S128 : Shape := ⟨1, ![128]⟩
abbrev S16x16384x32 : Shape := ⟨3, ![16, 16384, 32]⟩
abbrev S_ : Shape := ⟨0, ![]⟩
abbrev S16x16384 : Shape := ⟨2, ![16, 16384]⟩
abbrev S16x16384x1 : Shape := ⟨3, ![16, 16384, 1]⟩
abbrev S16x16384x128 : Shape := ⟨3, ![16, 16384, 128]⟩
abbrev S1x1x128 : Shape := ⟨3, ![1, 1, 128]⟩

abbrev nBuf : Space → Nat
  | .hbm => 27
  | .vmem => 0
  | .smem => 0
  | _ => 0

abbrev bufTy : (tb : Table) → Fin (tcTables nBuf tb) → BufTy
  | .hbm, ⟨0, _⟩ => ⟨S16x128x128x32, .f32⟩
  | .hbm, ⟨1, _⟩ => ⟨S32x128, .f32⟩
  | .hbm, ⟨2, _⟩ => ⟨S128, .f32⟩
  | .hbm, ⟨3, _⟩ => ⟨S16x16384x32, .f32⟩
  | .hbm, ⟨4, _⟩ => ⟨S16x16384x32, .f32⟩
  | .hbm, ⟨5, _⟩ => ⟨S_, .f32⟩
  | .hbm, ⟨6, _⟩ => ⟨S16x16384, .f32⟩
  | .hbm, ⟨7, _⟩ => ⟨S16x16384x1, .f32⟩
  | .hbm, ⟨8, _⟩ => ⟨S32x128, .f32⟩
  | .hbm, ⟨9, _⟩ => ⟨S_, .f32⟩
  | .hbm, ⟨10, _⟩ => ⟨S128, .f32⟩
  | .hbm, ⟨11, _⟩ => ⟨S16x16384x128, .f32⟩
  | .hbm, ⟨12, _⟩ => ⟨S_, .f32⟩
  | .hbm, ⟨13, _⟩ => ⟨S16x16384x128, .f32⟩
  | .hbm, ⟨14, _⟩ => ⟨S16x16384x128, .f32⟩
  | .hbm, ⟨15, _⟩ => ⟨S16x16384x128, .f32⟩
  | .hbm, ⟨16, _⟩ => ⟨S16x16384x128, .f32⟩
  | .hbm, ⟨17, _⟩ => ⟨S1x1x128, .f32⟩
  | .hbm, ⟨18, _⟩ => ⟨S16x16384x128, .f32⟩
  | .hbm, ⟨19, _⟩ => ⟨S16x16384x128, .f32⟩
  | .hbm, ⟨20, _⟩ => ⟨S_, .f32⟩
  | .hbm, ⟨21, _⟩ => ⟨S16x16384x128, .f32⟩
  | .hbm, ⟨22, _⟩ => ⟨S16x16384x128, .f32⟩
  | .hbm, ⟨23, _⟩ => ⟨S16x16384x128, .f32⟩
  | .hbm, ⟨24, _⟩ => ⟨S1x1x128, .f32⟩
  | .hbm, ⟨25, _⟩ => ⟨S16x16384x128, .f32⟩
  | .hbm, ⟨26, _⟩ => ⟨S16x16384x128, .f32⟩
  | _, _ => ⟨S16x128x128x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  shapeCasts_S16x128x128x32_S16x16384x32 : S16x128x128x32.ShapeCasts S16x16384x32
  reducesTo_S16x16384x32_S16x16384_d2 : S16x16384x32.ReducesTo [2] S16x16384
  h_S_ : 0 < S_.numel
  bcast_S16x16384_S16x16384x1_0_1 : S16x16384.BroadcastsInDim S16x16384x1 (![0, 1] : Fin 2 → Fin S16x16384x1.rank)
  reducesTo_S32x128_S128_d0 : S32x128.ReducesTo [0] S128
  bcast_S_S16x16384x128 : S_.BroadcastsInDim S16x16384x128 (![] : Fin 0 → Fin S16x16384x128.rank)
  bcast_S16x16384x1_S16x16384x128_0_1_2 : S16x16384x1.BroadcastsInDim S16x16384x128 (![0, 1, 2] : Fin 3 → Fin S16x16384x128.rank)
  bcast_S128_S1x1x128_2 : S128.BroadcastsInDim S1x1x128 (![2] : Fin 1 → Fin S1x1x128.rank)
  bcast_S1x1x128_S16x16384x128_0_1_2 : S1x1x128.BroadcastsInDim S16x16384x128 (![0, 1, 2] : Fin 3 → Fin S16x16384x128.rank)
  dot_S16x16384x32_S32x128_S16x16384x128_2_0_01_1_n_n_wf : DotDims.WF S16x16384x32 S32x128 S16x16384x128 [2] [0] [0, 1] [1] [] []

variable [Facts₀]

def dot_S16x16384x32_S32x128_S16x16384x128_2_0_01_1_n_n : DotDims S16x16384x32 S32x128 S16x16384x128 where
  lhsContracting := [2]
  rhsContracting := [0]
  lhsNonContracting := [0, 1]
  rhsNonContracting := [1]
  lhsBatch := []
  rhsBatch := []
  wf := dot_S16x16384x32_S32x128_S16x16384x128_2_0_01_1_n_n_wf

class Facts : Prop extends Facts₀ where

variable [Facts]
-- ==== Proof.LibKeepdims.lean ====
/-
  Column layouts read at an index given by coordinates.
  A row-wise reduction that keeps its reduced axis (a sum over the columns of an [a, b] array, kept as an [a, 1]
  column) meets three layout steps on the way: the vector of row results is cast to a column, the column may be cast
  to a row, and the column is broadcast back over the b columns. Each is a reindexing; at an index written by its
  coordinates the result is the operand at the evident index: row i of the column is entry i of the vector, and entry
  (p, c) of the broadcast is row p of the column, whatever c. The same three steps written as host operations
  (a broadcast that places a vector along axis 0 of a column, a broadcast of a column over columns) read the same way,
  and so do a vector laid as a row, a row repeated over the rows, and a scalar spread over a whole shape.
-/
import Idealize.ShloMosaic.Lib.ValueLayout

namespace Cert.Lib.Keepdims

open Idealize.ShloMosaic Idealize.ShloMosaic.ValueIdx

variable {α : Type}

/-! ## A vector and its column -/

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to an `[a]` vector reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column cast to a `[1, a]` row reads, at `(u, i)`, the column at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-! ## A column broadcast over the columns -/

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => exact (if_pos rfl).symm

/-! ## The same steps as host broadcasts -/

/-- A host broadcast that lays an `[a]` vector along axis 0 of an `[a, 1]` column reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A host broadcast of an `[a, 1]` column over `[a, b]` (axes kept in place) reads, at `(p, c)`, the column at `(p, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => exact (if_pos rfl).symm

/-! ## A row as host broadcasts -/

/-- A host broadcast that lays a `[b]` vector along axis 1 of a `[1, b]` row reads, at `(u, c)`, the vector at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A host broadcast of a `[1, b]` row over `[a, b]` (axes kept in place) reads, at `(p, c)`, the row at `(0, c)`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => exact (if_pos rfl).symm
  | ⟨1, _⟩ =>
    show c.val = if b = 1 then 0 else c.val
    split
    · have := c.isLt; omega
    · rfl

/-- A host broadcast of a scalar to any shape reads the scalar everywhere. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

end Cert.Lib.Keepdims
-- ==== Proof.LibRowSums.lean ====
/-
  Row sums of a matrix on extended reals, read at a row.
  A sum over the columns of an `[a, b]` array is taken two ways in a program: by the vector unit, as a reduction of a
  block over its lane axis started from the zero word, and by a host reduction over axis 1 started from an initial
  scalar. Read at row `p`, the first is the sum over `k` of the entries `(p, k)`, the second the initial value plus that
  sum; so with the zero word as initial value they are one number. Addition on the extended reals is commutative and
  associative, so the order either side takes the terms in does not enter.
-/
import Idealize.ShloMosaic.Lib.ValueIdx
import Idealize.ShloMosaic.PureOps.Ideal.Laws

namespace Cert.Lib.RowSums

open Idealize.ShloMosaic Idealize.ShloMosaic.ValueIdx

/-- The index of entry `k` of row `p`, as the reduction's own bookkeeping spells it, is `(p, k)`. -/
theorem lift_row {a b : Nat} (h : Shape.Reduces ⟨2, ![a, b]⟩ [1] ⟨1, ![a]⟩) (p : Fin a) (k : Fin b) :
    h.lift (ix1 p) k = ix2 p k :=
  funext fun c => Fin.ext (by match c with | ⟨0, _⟩ => rfl | ⟨1, _⟩ => rfl)

/-- A vector-unit sum over the columns of an `[a, b]` block, read at row `p`: the sum of the row's entries. -/
theorem multiReduction_cols_apply {a b : Nat} (src : FVec Ideal ⟨2, ![a, b]⟩ .f32)
    (h : Shape.Reduces ⟨2, ![a, b]⟩ [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (lift_row h p k))

/-- A host sum over axis 1 of an `[a, b]` array, read at row `p`: the initial value plus the sum of the row's entries. -/
theorem hostReduceAdd_cols_apply {a b : Nat} (x : (⟨2, ![a, b]⟩ : Shape).Idx → EReal) (init : EReal)
    (h' : Shape.ReducesTo ⟨2, ![a, b]⟩ [1] ⟨1, ![a]⟩) (h : Shape.Reduces ⟨2, ![a, b]⟩ [1] ⟨1, ![a]⟩) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

/-- Started from the zero word, the host's row sum is the vector unit's. -/
theorem host_row_sum_eq_vector {a b : Nat} (x : FVec Ideal ⟨2, ![a, b]⟩ .f32)
    (h' : Shape.ReducesTo ⟨2, ![a, b]⟩ [1] ⟨1, ![a]⟩) (h : Shape.Reduces ⟨2, ![a, b]⟩ [1] ⟨1, ![a]⟩)
    (hφ : FKind.Formats .f32) (hacc : (0x00000000#32 : BitVec 32) = FKind.add.neutral .f32 hφ) (p : Fin a) :
    Ideal.hostReduceAdd h' x (Ideal.ofBits .f32 0x00000000#32) (ix1 p)
      = multiReduction .add [1] ⟨1, ![a]⟩ x 0x00000000#32 h hφ hacc (ix1 p) := by
  rw [hostReduceAdd_cols_apply x _ h' h p, multiReduction_cols_apply x h hφ hacc p, Ideal.ofBits_zero_f32, zero_add]

end Cert.Lib.RowSums
-- ==== Proof.LibMatmulPlain.lean ====
/-
  A plain matrix product on extended reals, read at an index given by coordinates.
  The product of a `[B, K]` block by a `[K, M]` matrix (contracting the block's columns with the matrix's rows, no batch
  axes) is computed by the matrix unit into an accumulator of zeros, and by the host as a general dot product. Read at
  `(p, q)` both are the sum over `k` of `lhs (p, k) · rhs (k, q)`: one sum of `K` products, whatever the operands'
  float formats were (a change of format is the identity on extended reals).
-/
import Idealize.ShloMosaic.Lib.ValueIdx
import Idealize.ShloMosaic.PureOps.Ideal.Laws

namespace Cert.Lib.MatmulPlain

open Idealize.ShloMosaic Idealize.ShloMosaic.ValueIdx

/-- The dimension numbers of `lhs @ rhs` for `[B, K]` by `[K, M]`. -/
abbrev plainDims (B K M : Nat)
    (wf : DotDims.WF ⟨2, ![B, K]⟩ ⟨2, ![K, M]⟩ ⟨2, ![B, M]⟩ [1] [0] [0] [1] [] []) :
    DotDims ⟨2, ![B, K]⟩ ⟨2, ![K, M]⟩ ⟨2, ![B, M]⟩ where
  lhsContracting := [1]
  rhsContracting := [0]
  lhsNonContracting := [0]
  rhsNonContracting := [1]
  lhsBatch := []
  rhsBatch := []
  wf := wf

section

variable {B K M : Nat} (wf : DotDims.WF ⟨2, ![B, K]⟩ ⟨2, ![K, M]⟩ ⟨2, ![B, M]⟩ [1] [0] [0] [1] [] [])

/-- The left operand is read at row `p`, column the contraction coordinate. -/
theorem lhsIdx_eq (p : Fin B) (q : Fin M) (k : Fin K) :
    (plainDims B K M wf).lhsIdx (ix2 p q) ((contrEquiv1 (plainDims B K M wf) K rfl rfl).symm k) = ix2 p k :=
  funext fun a => Fin.ext (by
    match a with
    | ⟨0, _⟩ =>
      show ((plainDims B K M wf).lhsIdx (ix2 p q) ((contrEquiv1 (plainDims B K M wf) K rfl rfl).symm k) 0).val = p.val
      unfold DotDims.lhsIdx
      rw [dif_neg List.not_mem_nil, dif_pos (List.mem_singleton.mpr rfl)]
      rfl
    | ⟨1, _⟩ =>
      exact ((plainDims B K M wf).lhsIdx_val_of_single rfl _ _).trans
        (contrEquiv1_symm_val (plainDims B K M wf) K rfl rfl k))

/-- The right operand is read at row the contraction coordinate, column `q`. -/
theorem rhsIdx_eq (p : Fin B) (q : Fin M) (k : Fin K) :
    (plainDims B K M wf).rhsIdx (ix2 p q) ((contrEquiv1 (plainDims B K M wf) K rfl rfl).symm k) = ix2 k q :=
  funext fun a => Fin.ext (by
    match a with
    | ⟨0, _⟩ =>
      exact ((plainDims B K M wf).rhsIdx_val_of_single rfl _ _).trans
        (contrEquiv1_symm_val (plainDims B K M wf) K rfl rfl k)
    | ⟨1, _⟩ =>
      show ((plainDims B K M wf).rhsIdx (ix2 p q) ((contrEquiv1 (plainDims B K M wf) K rfl rfl).symm k) 1).val = q.val
      unfold DotDims.rhsIdx
      rw [dif_neg List.not_mem_nil, dif_pos (List.mem_singleton.mpr rfl)]
      rfl)

/-- THE MATRIX UNIT'S PRODUCT INTO ZEROS, read at `(p, q)`. -/
theorem matmul_zero_apply {φ₁ φ₂ : FTy} (prec : Option ContractPrecision)
    (lhs : FVec Ideal ⟨2, ![B, K]⟩ φ₁) (rhs : FVec Ideal ⟨2, ![K, M]⟩ φ₂) (p : Fin B) (q : Fin M) :
    FloatOps.matmul (plainDims B K M wf) prec lhs rhs (constant ⟨2, ![B, M]⟩ .f32 0x00000000#32) (ix2 p q)
      = ∑ k : Fin K, lhs (ix2 p k) * rhs (ix2 k q) := by
  rw [Ideal.matmul_constant_zero_apply, ← Equiv.sum_comp (contrEquiv1 (plainDims B K M wf) K rfl rfl).symm]
  refine Finset.sum_congr rfl fun k _ => ?_
  rw [lhsIdx_eq wf p q k, rhsIdx_eq wf p q k]

/-- THE HOST'S PRODUCT, read at `(p, q)`. -/
theorem dotGeneral_apply {φ₁ φ₂ : FTy} (prec : Option ContractPrecision)
    (lhs : FVec Ideal ⟨2, ![B, K]⟩ φ₁) (rhs : FVec Ideal ⟨2, ![K, M]⟩ φ₂) (p : Fin B) (q : Fin M) :
    Host.dotGeneral (plainDims B K M wf) prec lhs rhs (ix2 p q) = ∑ k : Fin K, lhs (ix2 p k) * rhs (ix2 k q) := by
  simp only [Host.dotGeneral]
  rw [Ideal.dotGeneral_apply, ← Equiv.sum_comp (contrEquiv1 (plainDims B K M wf) K rfl rfl).symm]
  refine Finset.sum_congr rfl fun k _ => ?_
  rw [lhsIdx_eq wf p q k, rhsIdx_eq wf p q k]

end

end Cert.Lib.MatmulPlain
-- ==== Proof.LibReshapeFlat.lean ====
/-
  Two reshapes of one array, and a matrix of rows regrouped into batches.
  A reshape keeps every entry's position in row-major order. So two reshapes of the same array hold the same entry
  wherever their indices have the same row-major position, whatever the two target shapes are; and an `[a·b, c]`
  matrix regrouped as `[a, b, c]` holds at `(i, j, k)` the matrix's entry `(i·b + j, k)`: row `i·b + j` is row
  `j` of batch `i`.
-/
import Idealize.ShloMosaic.Lib.Pipeline.Value
import Idealize.ShloMosaic.Lib.ValueIdx

namespace Cert.Lib.ReshapeFlat

open Idealize.ShloMosaic Idealize.ShloMosaic.ValueIdx

variable {α : Type}

/-- Two reshapes of one array agree at indices of equal row-major position. -/
theorem shapeCast_eq_shapeCast {s t₁ t₂ : Shape} (x : s.Idx → α) (h₁ : s.ShapeCasts t₁) (h₂ : s.ShapeCasts t₂)
    (j₁ : t₁.Idx) (j₂ : t₂.Idx) (e : (t₁.rowMajor j₁).val = (t₂.rowMajor j₂).val) :
    shapeCast t₁ x h₁ j₁ = shapeCast t₂ x h₂ j₂ :=
  shapeCast_apply x h₁ j₁ (Shape.reshapeEquiv h₂ j₂) ((Shape.rowMajor_reshapeEquiv h₂ j₂).trans e.symm)

/-- An `[n, c]` matrix with `n = a·b` rows regrouped as `[a, b, c]` reads, at `(i, j, k)`, row `i·b + j` at column `k`. -/
theorem shapeCast_rows_batches_apply {n a b c : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

end Cert.Lib.ReshapeFlat
-- ==== Proof.Spec.lean ====
/-
  The Gaussian feature map, entry by entry.
  For a pixel's feature row `x` (32 numbers), a centre `w` (one column of the 32 × 128 weight matrix) and a bias `β`,
  the result entry is  exp(−(‖x‖² − 2·⟨x, w⟩ + ‖w‖²)) + β,  the squared distance ‖x − w‖² expanded; ‖w‖² arrives
  already summed (both programs form it by the same column sum of w∘w before anything else, so it is carried as one
  number here). The literals −1 and 2 are the float words the programs print; the same word stands on both sides and
  is never evaluated.
  The pixels are indexed two ways: as the 262144 rows of a matrix (how the kernel walks them, 8192 rows per grid
  point) and as 16 batches of 16384 (how the result is returned). `byRows` and `byBatches` are the whole result in
  the two arrangements, and `byRows_regrouped` says that regrouping the first gives the second: row 16384·i + j is
  pixel j of batch i, on the features' side and on the result's side alike.
-/
import Idealize.ShloMosaic.PureOps.Ideal
import Idealize.ShloMosaic.Lib.ValueIdx
import Idealize.ShloMosaic.Lib.ValueLayout
import proofs.«114990_j12043088298094_2_alg».proof.Proof.LibReshapeFlat

noncomputable section

namespace Cert.GaussFeature

open Idealize.ShloMosaic Idealize.ShloMosaic.ValueIdx

/-- One entry: exp(−1 · ((Σ xₖ² − 2 · Σ xₖ wₖ) + ‖w‖²)) + β, grouped as both programs group it. -/
def entry (x w : Fin 32 → EReal) (wsq β : EReal) : EReal :=
  Ideal.exp (Ideal.ofBits .f32 0xBF800000#32
      * (((∑ k : Fin 32, x k * x k) - Ideal.ofBits .f32 0x40000000#32 * (∑ k : Fin 32, x k * w k)) + wsq)) + β

/-- The result with the pixels as the rows of a matrix; ‖w‖² and the bias arrive as `[1, 128]` rows. -/
def byRows (x : (⟨2, ![262144, 32]⟩ : Shape).Idx → EReal) (w : (⟨2, ![32, 128]⟩ : Shape).Idx → EReal)
    (wsq β : (⟨2, ![1, 128]⟩ : Shape).Idx → EReal) : (⟨2, ![262144, 128]⟩ : Shape).Idx → EReal :=
  fun i => entry (fun k => x (ix2 (i 0) k)) (fun k => w (ix2 k (i 1))) (wsq (ix2 (0 : Fin 1) (i 1))) (β (ix2 (0 : Fin 1) (i 1)))

/-- The result with the pixels in batches; ‖w‖² and the bias arrive as vectors. -/
def byBatches (x : (⟨3, ![16, 16384, 32]⟩ : Shape).Idx → EReal) (w : (⟨2, ![32, 128]⟩ : Shape).Idx → EReal)
    (wsq β : (⟨1, ![128]⟩ : Shape).Idx → EReal) : (⟨3, ![16, 16384, 128]⟩ : Shape).Idx → EReal :=
  fun i => entry (fun k => x (ix3 (i 0) (i 1) k)) (fun k => w (ix2 k (i 2))) (wsq (ix1 (i 2))) (β (ix1 (i 2)))

/-- Regrouping the rows into batches: the row-arranged result of the flattened features, with ‖w‖² and the bias laid
    as rows, regrouped, is the batch-arranged result of the batched features. -/
theorem byRows_regrouped (x : (⟨4, ![16, 128, 128, 32]⟩ : Shape).Idx → EReal) (w : (⟨2, ![32, 128]⟩ : Shape).Idx → EReal)
    (wsq β : (⟨1, ![128]⟩ : Shape).Idx → EReal)
    (hx : (⟨4, ![16, 128, 128, 32]⟩ : Shape).ShapeCasts ⟨2, ![262144, 32]⟩)
    (hx' : (⟨4, ![16, 128, 128, 32]⟩ : Shape).ShapeCasts ⟨3, ![16, 16384, 32]⟩)
    (hv : (⟨1, ![128]⟩ : Shape).ShapeCasts ⟨2, ![1, 128]⟩)
    (ho : (⟨2, ![262144, 128]⟩ : Shape).ShapeCasts ⟨3, ![16, 16384, 128]⟩) :
    shapeCast ⟨3, ![16, 16384, 128]⟩
        (byRows (shapeCast ⟨2, ![262144, 32]⟩ x hx) w (shapeCast ⟨2, ![1, 128]⟩ wsq hv) (shapeCast ⟨2, ![1, 128]⟩ β hv)) ho
      = byBatches (shapeCast ⟨3, ![16, 16384, 32]⟩ x hx') w wsq β := by
  funext i
  obtain ⟨b, n, o, rfl⟩ : ∃ (b : Fin 16) (n : Fin 16384) (o : Fin 128), i = ix3 b n o := ⟨i 0, i 1, i 2, eq_ix3 i⟩
  have hr : b.val * 16384 + n.val < 262144 := by have := b.isLt; have := n.isLt; omega
  rw [Cert.Lib.ReshapeFlat.shapeCast_rows_batches_apply _ ho b n o ⟨b.val * 16384 + n.val, hr⟩ rfl]
  show entry _ _ _ _ = entry _ _ _ _
  have ex : ∀ k : Fin 32, shapeCast ⟨2, ![262144, 32]⟩ x hx (ix2 (⟨b.val * 16384 + n.val, hr⟩ : Fin 262144) k)
      = shapeCast ⟨3, ![16, 16384, 32]⟩ x hx' (ix3 b n k) := fun k =>
    Cert.Lib.ReshapeFlat.shapeCast_eq_shapeCast x hx hx' _ _ (by
      rw [Shape.rowMajor_val_two, Shape.rowMajor_val_three]; rfl)
  have ew : shapeCast ⟨2, ![1, 128]⟩ wsq hv (ix2 (0 : Fin 1) o) = wsq (ix1 o) := shapeCast_a_1a_apply wsq hv 0 o
  have eb : shapeCast ⟨2, ![1, 128]⟩ β hv (ix2 (0 : Fin 1) o) = β (ix1 o) := shapeCast_a_1a_apply β hv 0 o
  exact congr (congr (congrArg (fun f => entry f (fun k => w (ix2 k o))) (funext ex)) ew) eb

end Cert.GaussFeature

end
-- ==== Proof.BodyEntry.lean ====
/-
  What the kernel's body stores, entry by entry.
  The body holds an 8192-row block of the features, the whole weight matrix, and ‖w‖² and the bias as [1, 128] rows.
  Its one store writes, at (p, q), the feature-map entry of the block's row p against column q of the weights:
  the row's squared norm is a lane sum kept as a column and repeated over the 128 columns; the products ⟨x, w⟩ come
  from the matrix unit into zeros (the narrowing of both operands is the identity on extended reals); ‖w‖² and the
  bias are rows repeated over the 8192 rows. Everything else is pointwise.
-/
import proofs.«114990_j12043088298094_2_alg».proof.Proof.Gen.KernelIdeal.Skeleton
import proofs.«114990_j12043088298094_2_alg».proof.Proof.LibKeepdims
import proofs.«114990_j12043088298094_2_alg».proof.Proof.LibRowSums
import proofs.«114990_j12043088298094_2_alg».proof.Proof.LibMatmulPlain
import proofs.«114990_j12043088298094_2_alg».proof.Proof.Spec
import Idealize.ShloMosaic.Lib.ValueLayout
import Idealize.ShloMosaic.Lib.Pipeline.Value

noncomputable section

namespace Cert.KernelIdeal.Feature

open Cert.KernelIdeal Cert.KernelIdeal.Gen Idealize.ShloMosaic Idealize.ShloMosaic.ValueIdx

/-- The squared norm of row `p`: a lane sum, kept as a column, repeated over the columns. -/
theorem rowSq_apply (v : FVec Ideal S8192x32 .f32) (p : Fin 8192) (q : Fin 128) :
    broadcastTo S8192x128 (shapeCast S8192x1 (multiReduction .add [1] S8192 (mulf v v) 0x00000000#32
        reduces_S8192x32_S8192 (.inl rfl) rfl) shapeCasts_S8192_S8192x1) broadcasts_S8192x1_S8192x128 (ix2 p q)
      = ∑ k : Fin 32, v (ix2 p k) * v (ix2 p k) :=
  (Cert.Lib.Keepdims.broadcastTo_a1_ab_apply _ broadcasts_S8192x1_S8192x128 p q).trans
    ((Cert.Lib.Keepdims.shapeCast_a_a1_apply _ shapeCasts_S8192_S8192x1 p 0).trans
      (Cert.Lib.RowSums.multiReduction_cols_apply (mulf v v) reduces_S8192x32_S8192 (.inl rfl) rfl p))

/-- The products of row `p` with column `q`, from the matrix unit into zeros. -/
theorem rowDot_apply (v : FVec Ideal S8192x32 .f32) (w : FVec Ideal S32x128 .f32) (p : Fin 8192) (q : Fin 128) :
    matmul dot_S8192x32_S32x128_S8192x128_1_0_0_1_n_n none (truncf .bf16 v bitsLt_bf16_f32) (truncf .bf16 w bitsLt_bf16_f32)
        (constant S8192x128 .f32 0x00000000#32) (ix2 p q)
      = ∑ k : Fin 32, v (ix2 p k) * w (ix2 k q) :=
  Cert.Lib.MatmulPlain.matmul_zero_apply dot_S8192x32_S32x128_S8192x128_1_0_0_1_n_n_wf none
    (truncf .bf16 v bitsLt_bf16_f32) (truncf .bf16 w bitsLt_bf16_f32) p q

/-- A [1, 128] row repeated over the rows. -/
theorem rowRep_apply (r : FVec Ideal S1x128 .f32) (p : Fin 8192) (q : Fin 128) :
    broadcastTo S8192x128 (shapeCast S1x128 r shapeCasts_S1x128_S1x128) broadcasts_S1x128_S8192x128 (ix2 p q)
      = r (ix2 (0 : Fin 1) q) := by
  rw [shapeCast_self]
  exact broadcastTo_1b_ab_apply r broadcasts_S1x128_S8192x128 p q

/-- THE STORED VALUE at (p, q): the feature-map entry of row `p` of the block against column `q`. -/
theorem stored_apply (x : Vec Ideal S8192x32 .f32) (w : Vec Ideal S32x128 .f32) (wsq β : Vec Ideal S1x128 .f32)
    (p : Fin 8192) (q : Fin 128) :
    k0_pay1 (F := Ideal) x w wsq β (ix2 p q)
      = Cert.GaussFeature.entry (fun k => x (ix2 p k)) (fun k => w (ix2 k q)) (wsq (ix2 (0 : Fin 1) q)) (β (ix2 (0 : Fin 1) q)) := by
  unfold k0_pay1
  simp only [shapeCast_self]
  unfold Cert.GaussFeature.entry
  exact congr (congrArg (fun a b : EReal => Ideal.exp (Ideal.ofBits .f32 0xBF800000#32 * a) + b)
    (congr (congrArg (fun a b : EReal => a + b) (congr (congrArg (fun a b : EReal => a - Ideal.ofBits .f32 0x40000000#32 * b)
      (rowSq_apply x p q)) (rowDot_apply x w p q))) ((broadcastTo_1b_ab_apply wsq broadcasts_S1x128_S8192x128 p q))))
    (broadcastTo_1b_ab_apply β broadcasts_S1x128_S8192x128 p q)

end Cert.KernelIdeal.Feature

end
-- ==== Proof.KernelArray.lean ====
/-
  The array the kernel's region leaves: the feature map by rows.
  Before the region the host lays the features out as a [262144, 32] matrix and ‖w‖² and the bias as [1, 128] rows.
  Grid point t holds rows 8192·t … 8192·t + 8191 of the features and the whole of the three small arrays, so what it
  writes back is rows 8192·t … of the row-arranged feature map; the 32 blocks tile the 262144 rows (row r lies in
  block r / 8192), so after the last point the whole output array is that map.
-/
import proofs.«114990_j12043088298094_2_alg».proof.Proof.Gen.KernelIdeal.Frame
import proofs.«114990_j12043088298094_2_alg».proof.Proof.BodyEntry
import Idealize.ShloMosaic.Lib.Pipeline.Value
import Idealize.ShloMosaic.Lib.StableHlo.Run
import Idealize.ShloMosaic.Lib.Tactic

noncomputable section

namespace Cert.KernelIdeal.Feature

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## What the host lays out before the region -/

/-- The features as a matrix of rows. -/
theorem V_features (c : Dev nD) :
    (V m c main_v0 : S262144x32.Idx → EReal)
      = shapeCast S262144x32 (m ((c : Thread nD τ).loc main_arg0)) shapeCasts_S16x128x128x32_S262144x32 := by
  show StableHlo.after hostOps0 (fun b => m (c, b)) (Proc.devRef .tc main_v0) = _
  after_results
  rfl

/-- ‖w‖² (the column sums of w∘w) as a row. -/
theorem V_colSq (c : Dev nD) :
    (V m c main_v3 : S1x128.Idx → EReal)
      = shapeCast S1x128 (Host.reduceAdd (F := Ideal) (mulf (F := Ideal) (φ := .f32) (m ((c : Thread nD τ).loc main_arg1)) (m ((c : Thread nD τ).loc main_arg1)))
          (constant (F := Ideal) S_ .f32 0x00000000#32) reducesTo_S32x128_S128_d0 h_S_) shapeCasts_S128_S1x128 := by
  show StableHlo.after hostOps0 (fun b => m (c, b)) (Proc.devRef .tc main_v3) = _
  after_results
  rfl

/-- The bias as a row. -/
theorem V_bias (c : Dev nD) :
    (V m c main_v4 : S1x128.Idx → EReal)
      = shapeCast S1x128 (m ((c : Thread nD τ).loc main_arg2)) shapeCasts_S128_S1x128 := by
  show StableHlo.after hostOps0 (fun b => m (c, b)) (Proc.devRef .tc main_v4) = _
  after_results
  rfl

/-! ## The blocks a grid point holds -/

theorem hz : (![0, 0] : Fin 2 → Nat) = fun _ => 0 := funext fun a => by fin_cases a <;> rfl

/-- The printed index maps over the grid: the features and the output move one block of rows per point; the three
    small arrays stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The features' block at point `t` is rows 8192·t … of the feature matrix. -/
theorem featBlock_apply (c : Dev nD) (t : Fin cfg0.N) (y : S8192x32.Idx) (k : S262144x32.Idx)
    (hk0 : (k 0).val = t.val * 8192 + (y 0).val) (hk1 : (k 1).val = (y 1).val) :
    (iblk m c 0 t : Vec Ideal S8192x32 .f32) y = (V m c main_v0 : S262144x32.Idx → EReal) k := by
  obtain ⟨h0, h1, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 2) * 8192 + 1 * (y 0).val = (k 0).val; rw [h0, hk0]; omega
  | ⟨1, _⟩ => show win0_0.index t (1 : Fin 2) * 32 + 1 * (y 1).val = (k 1).val; rw [h1, hk1]; omega

/-- The weights' block at every point is the whole weight matrix. -/
theorem weightBlock_eq (c : Dev nD) (t : Fin cfg0.N) :
    (iblk m c 1 t : Vec Ideal S32x128 .f32) = (V m c main_arg1 : S32x128.Idx → EReal) := by
  obtain ⟨-, -, h0, h1, -⟩ := idx_facts t
  funext y
  unfold iblk
  rw [View.read_apply]
  show V m c main_arg1 _ = V m c main_arg1 _
  refine congrArg (V m c main_arg1) (funext fun a => Fin.ext ?_)
  match a with
  | ⟨0, _⟩ => show win0_1.index t (0 : Fin 2) * 32 + 1 * (y 0).val = (y 0).val; rw [h0]; omega
  | ⟨1, _⟩ => show win0_1.index t (1 : Fin 2) * 128 + 1 * (y 1).val = (y 1).val; rw [h1]; omega

/-- ‖w‖²'s block at every point is the whole row. -/
theorem colSqBlock_eq (c : Dev nD) (t : Fin cfg0.N) :
    (iblk m c 2 t : Vec Ideal S1x128 .f32) = (V m c main_v3 : S1x128.Idx → EReal) := by
  obtain ⟨-, -, -, -, h0, h1, -⟩ := idx_facts t
  funext y
  unfold iblk
  rw [View.read_apply]
  show V m c main_v3 _ = V m c main_v3 _
  refine congrArg (V m c main_v3) (funext fun a => Fin.ext ?_)
  match a with
  | ⟨0, _⟩ => show win0_2.index t (0 : Fin 2) * 1 + 1 * (y 0).val = (y 0).val; rw [h0]; omega
  | ⟨1, _⟩ => show win0_2.index t (1 : Fin 2) * 128 + 1 * (y 1).val = (y 1).val; rw [h1]; omega

/-- The bias's block at every point is the whole row. -/
theorem biasBlock_eq (c : Dev nD) (t : Fin cfg0.N) :
    (iblk m c 3 t : Vec Ideal S1x128 .f32) = (V m c main_v4 : S1x128.Idx → EReal) := by
  obtain ⟨-, -, -, -, -, -, h0, h1, -⟩ := idx_facts t
  funext y
  unfold iblk
  rw [View.read_apply]
  show V m c main_v4 _ = V m c main_v4 _
  refine congrArg (V m c main_v4) (funext fun a => Fin.ext ?_)
  match a with
  | ⟨0, _⟩ => show win0_3.index t (0 : Fin 2) * 1 + 1 * (y 0).val = (y 0).val; rw [h0]; omega
  | ⟨1, _⟩ => show win0_3.index t (1 : Fin 2) * 128 + 1 * (y 1).val = (y 1).val; rw [h1]; omega

/-! ## What a point stores is a block of the row-arranged feature map -/

/-- If a block holds rows `8192·tv + ·` of a matrix `A`, the value stored at `j` is the row-arranged map of `A` at the
    index `i` that lies `8192·tv` rows further down. -/
theorem stored_is_block (A : S262144x32.Idx → EReal) (W : S32x128.Idx → EReal) (Q B : S1x128.Idx → EReal)
    (x : Vec Ideal S8192x32 .f32) (tv : ℕ)
    (hx : ∀ (y : S8192x32.Idx) (k : S262144x32.Idx), (k 0).val = tv * 8192 + (y 0).val → (k 1).val = (y 1).val → x y = A k)
    (j : S8192x128.Idx) (i : S262144x128.Idx) (hi0 : (i 0).val = tv * 8192 + (j 0).val) (hi1 : (i 1).val = (j 1).val) :
    k0_pay1 (F := Ideal) x W Q B j = Cert.GaussFeature.byRows A W Q B i := by
  obtain ⟨p, q, rfl⟩ : ∃ (p : Fin 8192) (q : Fin 128), j = ix2 p q := ⟨j 0, j 1, eq_ix2 j⟩
  obtain ⟨r, o, rfl⟩ : ∃ (r : Fin 262144) (o : Fin 128), i = ix2 r o := ⟨i 0, i 1, eq_ix2 i⟩
  obtain rfl : o = q := Fin.ext hi1
  have e : (fun k : Fin 32 => x (ix2 p k)) = fun k : Fin 32 => A (ix2 r k) := funext fun k => hx _ _ hi0 rfl
  rw [stored_apply, e]
  rfl

/-- WHAT POINT `t` WRITES BACK is block `t` of the row-arranged feature map of the arrays the region finds. -/
theorem flushed_eq (c : Dev nD) (t : Fin cfg0.N) :
    (dats m 0 c).flushed 4 t = ((cfg0.win 4).blk t).view.read (Elt Ideal)
      (Cert.GaussFeature.byRows (V m c main_v0) (V m c main_arg1) (V m c main_v3) (V m c main_v4)) := by
  show (cfg0.win 4).cut (grid0.coords t) ((dats m 0 c).after 4 t) = _
  rw [after0_4]
  unfold out0_4
  rw [View.canon_unit_zero hz]
  simp only [View.ld_unit_zero (S := S8192x32) hz, View.ld_unit_zero (S := S32x128) hz, View.ld_unit_zero (S := S1x128) hz]
  rw [weightBlock_eq m c t, colSqBlock_eq m c t, biasBlock_eq m c t]
  obtain ⟨-, -, -, -, -, -, -, -, h0, h1⟩ := idx_facts t
  funext j
  rw [View.read_apply]
  refine stored_is_block (V m c main_v0) (V m c main_arg1) (V m c main_v3) (V m c main_v4) (iblk m c 0 t) t.val
    (featBlock_apply m c t) j _ ?_ ?_
  · show win0_4.index t (0 : Fin 2) * 8192 + 1 * (j 0).val = t.val * 8192 + (j 0).val; rw [h0]; omega
  · show win0_4.index t (1 : Fin 2) * 128 + 1 * (j 1).val = (j 1).val; rw [h1]; omega

/-! ## The blocks tile the array -/

/-- An index of the output array is in point `t`'s block iff each coordinate is in the block's range on its axis. -/
theorem mem_blk (t : Fin cfg0.N) (i : S262144x128.Idx) :
    i ∈ ((cfg0.win 4).blk t).view.set ↔ ∀ a : Fin 2, win0_4.index t a * S8192x128.size a ≤ (i a).val
      ∧ (i a).val < win0_4.index t a * S8192x128.size a + S8192x128.size a := by
  show i ∈ ((View.whole main_v5).slice (win0_4.rect t)).set ↔ _
  rw [View.set_slice_whole, Rect.mem_set_unit]
  exact Iff.rfl

/-- Row `r` lies in the block of point `r / 8192`. -/
theorem covered (i : S262144x128.Idx) :
    ∃ t : Fin cfg0.N, (cfg0.win 4).flush t = true ∧ i ∈ ((cfg0.win 4).blk t).view.set := by
  have hi0 : (i 0).val < 262144 := (i 0).isLt
  have hi1 : (i 1).val < 128 := (i 1).isLt
  have hN : cfg0.N = 32 := N_0
  have ht : (i 0).val / 8192 < cfg0.N := by rw [hN]; omega
  obtain ⟨-, -, -, -, -, -, -, -, h0, h1⟩ := idx_facts ⟨(i 0).val / 8192, ht⟩
  refine ⟨⟨(i 0).val / 8192, ht⟩, flush0_4 _, ?_⟩
  rw [mem_blk]
  intro a
  match a with
  | ⟨0, _⟩ =>
    show win0_4.index ⟨(i 0).val / 8192, ht⟩ (0 : Fin 2) * 8192 ≤ (i 0).val
      ∧ (i 0).val < win0_4.index ⟨(i 0).val / 8192, ht⟩ (0 : Fin 2) * 8192 + 8192
    rw [h0]; show (i 0).val / 8192 * 8192 ≤ (i 0).val ∧ (i 0).val < (i 0).val / 8192 * 8192 + 8192; omega
  | ⟨1, _⟩ =>
    show win0_4.index ⟨(i 0).val / 8192, ht⟩ (1 : Fin 2) * 128 ≤ (i 1).val
      ∧ (i 1).val < win0_4.index ⟨(i 0).val / 8192, ht⟩ (1 : Fin 2) * 128 + 128
    rw [h1]; omega

/-- THE OUTPUT ARRAY after the last point: the row-arranged feature map of the arrays the region finds. -/
theorem final (c : Dev nD) :
    (dats m 0 c).arrAt 4 cfg0.N
      = Cert.GaussFeature.byRows (V m c main_v0) (V m c main_arg1) (V m c main_v3) (V m c main_v4) :=
  (dats m 0 c).arrAt_eq_of_cover 4 _ (fun t _ => flushed_eq m c t) covered

end Cert.KernelIdeal.Feature

end
-- ==== Proof.KernelRun.lean ====
/-
  The kernel's program, run: what it returns.
  After the region the host regroups the [262144, 128] output array into [16, 16384, 128]. The region's array is the
  row-arranged feature map of the flattened features (with ‖w‖² and the bias laid as rows), and regrouping that is the
  batch-arranged feature map of the features regrouped as [16, 16384, 32]: the returned array, as one function of the
  three arguments. The arguments end as they were.
-/
import proofs.«114990_j12043088298094_2_alg».proof.Proof.KernelArray

noncomputable section

namespace Cert.KernelIdeal.Feature

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The features regroup into 16 batches of 16384 pixels. -/
theorem batches_cast : S16x128x128x32.ShapeCasts ⟨3, ![16, 16384, 32]⟩ := by decide

/-- The returned array as one function of the arguments: the batch-arranged feature map. -/
abbrev result (c : Dev nD) : S16x16384x128.Idx → EReal :=
  Cert.GaussFeature.byBatches (shapeCast ⟨3, ![16, 16384, 32]⟩ (m ((c : Thread nD τ).loc main_arg0)) batches_cast)
    (m ((c : Thread nD τ).loc main_arg1))
    (Host.reduceAdd (F := Ideal) (mulf (F := Ideal) (φ := .f32) (m ((c : Thread nD τ).loc main_arg1)) (m ((c : Thread nD τ).loc main_arg1)))
      (constant (F := Ideal) S_ .f32 0x00000000#32) reducesTo_S32x128_S128_d0 h_S_)
    (m ((c : Thread nD τ).loc main_arg2))

/-- The host line after the region regroups the region's output array. -/
theorem tail_eq (c : Dev nD) :
    Pipeline.afterTail₀ cfgs (dats m) 0 (V0 m) [hostOps1] c main_v6
      = shapeCast S16x16384x128 ((dats m 0 c).arrAt 4 cfg0.N) shapeCasts_S262144x128_S16x16384x128 := by
  unfold Pipeline.afterTail₀
  show StableHlo.after hostOps1 _ (Proc.devRef .tc main_v6) = _
  after_results
  funext i
  show shapeCast S16x16384x128 (Pipeline.withArrays spec0 c (V0 m c) (fun w => (dats m 0 c).arrAt w cfg0.N)
    (Proc.devRef .tc (Pipeline.arrRef spec0 4))) shapeCasts_S262144x128_S16x16384x128 i = _
  rw [Pipeline.withArrays_arr spec0 launch0.win.arr_inj c _ _ 4]

/-- THE RETURNED ARRAY is the batch-arranged feature map of the arguments. -/
theorem returned_eq (c : Dev nD) :
    Pipeline.afterTail₀ cfgs (dats m) 0 (V0 m) [hostOps1] c main_v6 = result m c := by
  rw [tail_eq, final, V_features, V_colSq, V_bias, V_main_arg1]
  exact Cert.GaussFeature.byRows_regrouped _ _ _ _ _ _ _ _

/-- The program's run, read: every weakly fair execution ends with the returned array at the batch-arranged
    feature map of the arguments, and the arguments as they were. -/
theorem run : θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v6 (Pipeline.mem_restRefs_of main_v6 (by decide) (by decide))).trans (returned_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Feature

end
-- ==== Proof.RefFeature.lean ====
/-
  The reference computes the Gaussian feature map, batch-arranged.
  Read one operation at a time, its result entry (b, n, o) is
  exp(−1 · ((0 + Σₖ x[b,n,k]² − 2 · Σₖ x[b,n,k]·w[k,o]) + ‖w‖²[o])) + β[o]  with x the features regrouped as
  [16, 16384, 32]: the row sum starts from the zero word, which adds nothing, and every broadcast only repeats a
  value along the axes it does not depend on.
-/
import proofs.«114990_j12043088298094_2_alg».proof.Proof.Gen.ReferenceIdeal.Read
import proofs.«114990_j12043088298094_2_alg».proof.Proof.Spec

noncomputable section

namespace Cert.ReferenceIdeal.Feature

open Cert.ReferenceIdeal Cert.ReferenceIdeal.Gen Cert.ReferenceIdeal.Read Idealize.ShloMosaic Idealize.ShloMosaic.ValueIdx

/-- The column sums of w∘w as the reference forms them. -/
abbrev colSq (x1 : S32x128.Idx → EReal) : S128.Idx → EReal :=
  Host.reduceAdd (F := Ideal) (mulf (F := Ideal) (φ := .f32) x1 x1) (constant (F := Ideal) S_ .f32 0x00000000#32) reducesTo_S32x128_S128_d0 h_S_

/-- The reference's last stage is the batch-arranged feature map of the regrouped features. -/
theorem result_eq (x0 : S16x128x128x32.Idx → EReal) (x1 : S32x128.Idx → EReal) (x2 : S128.Idx → EReal) :
    val_main_v19 (F := Ideal) x0 x1 x2
      = Cert.GaussFeature.byBatches (shapeCast S16x16384x32 x0 shapeCasts_S16x128x128x32_S16x16384x32) x1 (colSq x1) x2 := by
  funext i
  obtain ⟨b, n, o, rfl⟩ : ∃ (b : Fin 16) (n : Fin 16384) (o : Fin 128), i = ix3 b n o := ⟨i 0, i 1, i 2, eq_ix3 i⟩
  have e1 : ∀ k : Fin 32, idx_main_v2 (idx_main_v3 (idx_main_v9 (ix3 b n o))) k = ix3 b n k := fun k =>
    funext fun a => Fin.ext (by match a with | ⟨0, _⟩ => rfl | ⟨1, _⟩ => rfl | ⟨2, _⟩ => rfl)
  have e2 : ∀ k : Fin 32, lidx_main_v6 (ix3 b n o) k = ix3 b n k := fun k =>
    funext fun a => Fin.ext (by match a with | ⟨0, _⟩ => rfl | ⟨1, _⟩ => rfl | ⟨2, _⟩ => rfl)
  have e3 : ∀ k : Fin 32, ridx_main_v6 (ix3 b n o) k = ix2 k o := fun k =>
    funext fun a => Fin.ext (by match a with | ⟨0, _⟩ => rfl | ⟨1, _⟩ => rfl)
  have e4 : idx_main_v11 (idx_main_v12 (ix3 b n o)) = ix1 o :=
    funext fun a => Fin.ext (by match a with | ⟨0, _⟩ => rfl)
  have e5 : idx_main_v17 (idx_main_v18 (ix3 b n o)) = ix1 o :=
    funext fun a => Fin.ext (by match a with | ⟨0, _⟩ => rfl)
  rw [val_main_v19_apply, val_main_v16_apply, val_main_v15_apply, val_main_v14_apply, val_main_cst_2_apply,
    val_main_v13_apply, val_main_v10_apply, val_main_v9_apply, val_main_v3_apply, val_main_v2_apply,
    val_main_v8_apply, val_main_v7_apply, val_main_cst_1_apply, val_main_v6_apply, val_main_v12_apply,
    val_main_v11_apply, val_main_v18_apply, val_main_v17_apply]
  simp only [val_main_v1_apply, val_main_cst_apply, e1, e2, e3, e4, e5, Ideal.mulf_def, Ideal.addf_def, Ideal.subf_def,
    Ideal.hostUnary_exp_def, Ideal.ofBits_def, Ideal.ofBits_zero_f32, zero_add]
  rfl

end Cert.ReferenceIdeal.Feature

end
-- ==== Proof.lean ====
/-
  The Gaussian feature map: a tiled kernel against its jnp reference, equal on the extended reals.
  Both programs return, for every pixel's 32 features x, every one of the 128 centres w (the columns of the weight
  matrix) and bias β,   exp(−(‖x‖² − 2·⟨x, w⟩ + ‖w‖²)) + β   as a [16, 16384, 128] array.
  The kernel flattens the pixels into 262144 rows, forms ‖w‖² once on the host, and walks the rows in 32 blocks of
  8192: per block a lane sum for ‖x‖², one product on the matrix unit (its operands narrowed to bf16, which is the
  identity on extended reals) for ⟨x, w⟩, the rest pointwise; its blocks tile the rows, and the host regroups the rows
  into batches at the end. The reference keeps the batches throughout and uses one general dot product and broadcasts.
  Entry by entry the two are the same expression with the same grouping and the same literal words (−1, 2, and a zero
  that starts the reference's row sum and adds nothing), so no law beyond 0 + s = s is needed and the finiteness
  precondition is never opened: the whole bridge is that row 16384·b + n of the flattened features is pixel n of
  batch b, on the way in and on the way out.
  The three frames are the programs' runs with the values forgotten; the idealization rewrote nothing, so there is
  nothing to preserve.
-/
import proofs.«114990_j12043088298094_2_alg».proof.Defs
import proofs.«114990_j12043088298094_2_alg».proof.Proof.Gen.Kernel
import proofs.«114990_j12043088298094_2_alg».proof.Proof.Gen.Kernel.Skeleton
import proofs.«114990_j12043088298094_2_alg».proof.Proof.Gen.Kernel.Launch
import proofs.«114990_j12043088298094_2_alg».proof.Proof.Gen.Kernel.Points
import proofs.«114990_j12043088298094_2_alg».proof.Proof.Gen.Kernel.Frame
import proofs.«114990_j12043088298094_2_alg».proof.Proof.Gen.KernelIdeal
import proofs.«114990_j12043088298094_2_alg».proof.Proof.Gen.KernelIdeal.Skeleton
import proofs.«114990_j12043088298094_2_alg».proof.Proof.Gen.KernelIdeal.Launch
import proofs.«114990_j12043088298094_2_alg».proof.Proof.Gen.KernelIdeal.Points
import proofs.«114990_j12043088298094_2_alg».proof.Proof.Gen.KernelIdeal.Frame
import proofs.«114990_j12043088298094_2_alg».proof.Proof.Gen.ReferenceIdeal
import proofs.«114990_j12043088298094_2_alg».proof.Proof.Gen.ReferenceIdeal.Run
import proofs.«114990_j12043088298094_2_alg».proof.Proof.Gen.ReferenceIdeal.Read
import proofs.«114990_j12043088298094_2_alg».proof.Proof.Gen.Pre_finite_inputs
import proofs.«114990_j12043088298094_2_alg».proof.Proof.KernelRun
import proofs.«114990_j12043088298094_2_alg».proof.Proof.RefFeature
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read on extended reals. -/
theorem frame_kernelIdeal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments both programs end with the batch-arranged feature map of those
    arguments: the kernel's run says so directly, the reference's last stage is that map, and the two terms differ only
    in which program's shape facts they cite. -/
theorem algebraic : Cert.algebraic_KernelIdeal_ReferenceIdeal := by
  intro m ρ m' ρ' _ hagree
  refine ⟨fun c => Cert.KernelIdeal.Feature.result m c, Cert.KernelIdeal.Feature.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v19_eq, Cert.ReferenceIdeal.Feature.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
